-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096 : Shape := ⟨2, ![16, 4096]⟩
abbrev S16x4096x256 : Shape := ⟨3, ![16, 4096, 256]⟩
abbrev S16 : Shape := ⟨1, ![16]⟩
abbrev S256x256 : Shape := ⟨2, ![256, 256]⟩
abbrev S256 : Shape := ⟨1, ![256]⟩
abbrev S_ : Shape := ⟨0, ![]⟩

class Facts : Prop where
  bcast_S_S16x4096 : S_.BroadcastsInDim S16x4096 (![] : Fin 0 → Fin S16x4096.rank)
  reducesTo_S16x4096_S_d0_1 : S16x4096.ReducesTo [0, 1] S_
  h_S_ : 0 < S_.numel
  bcast_S_S16x4096x256 : S_.BroadcastsInDim S16x4096x256 (![] : Fin 0 → Fin S16x4096x256.rank)
  reducesTo_S16x4096x256_S_d0_1_2 : S16x4096x256.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S16x4096 .f32) (main_arg1 : FVec F S16x4096x256 .f32) (main_arg2 : IVec S16 32) (main_arg3 : FVec F S256x256 .f32) (main_arg4 : FVec F S256 .f32) : IVec S_ 1 :=
  let main_v0 : FVec F S16x4096 .f32 := Host.absf main_arg0
  let main_cst : FVec F S_ .f32 := constant S_ .f32 0x7F800000#32
  let main_v1 : FVec F S16x4096 .f32 := broadcastInDim S16x4096 ![] bcast_S_S16x4096 main_cst
  let main_v2 : IVec S16x4096 1 := cmpf .olt main_v0 main_v1
  let main_c : IVec S_ 1 := constantI S_ 1 1#1
  let main_v3 : IVec S_ 1 := (fun x v => Host.reduce IntOp.andi x v reducesTo_S16x4096_S_d0_1 h_S_) main_v2 main_c
  let main_v4 : FVec F S16x4096x256 .f32 := Host.absf main_arg1
  let main_cst_0 : FVec F S_ .f32 := constant S_ .f32 0x7F800000#32
  let main_v5 : FVec F S16x4096x256 .f32 := broadcastInDim S16x4096x256 ![] bcast_S_S16x4096x256 main_cst_0
  let main_v6 : IVec S16x4096x256 1 := cmpf .olt main_v4 main_v5
  let main_c_1 : IVec S_ 1 := constantI S_ 1 1#1
  let main_v7 : IVec S_ 1 := (fun x v => Host.reduce IntOp.andi x v reducesTo_S16x4096x256_S_d0_1_2 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S16x4096 : Shape := ⟨2, ![16, 4096]⟩
abbrev S16x4096x256 : Shape := ⟨3, ![16, 4096, 256]⟩
abbrev S16 : Shape := ⟨1, ![16]⟩
abbrev S256x256 : Shape := ⟨2, ![256, 256]⟩
abbrev S256 : Shape := ⟨1, ![256]⟩
abbrev S1x256 : Shape := ⟨2, ![1, 256]⟩
abbrev S16x4095x256 : Shape := ⟨3, ![16, 4095, 256]⟩
abbrev S1x256x256 : Shape := ⟨3, ![1, 256, 256]⟩

abbrev nBuf : Space → Nat
  | .hbm => 9
  | .vmem => 7
  | .smem => 0
  | _ => 0

abbrev bufTy : (tb : Table) → Fin (tcTables nBuf tb) → BufTy
  | .hbm, ⟨0, _⟩ => ⟨S16x4096, .f32⟩
  | .hbm, ⟨1, _⟩ => ⟨S16x4096x256, .f32⟩
  | .hbm, ⟨2, _⟩ => ⟨S16, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256x256, .bf16⟩
  | .hbm, ⟨7, _⟩ => ⟨S1x256, .f32⟩
  | .hbm, ⟨8, _⟩ => ⟨S16x4095x256, .f32⟩
  | .local _ .vmem, ⟨0, _⟩ => ⟨S1x256x256, .f32⟩
  | .local _ .vmem, ⟨1, _⟩ => ⟨S1x256x256, .f32⟩
  | .local _ .vmem, ⟨2, _⟩ => ⟨S256x256, .bf16⟩
  | .local _ .vmem, ⟨3, _⟩ => ⟨S1x256, .f32⟩
  | .local _ .vmem, ⟨4, _⟩ => ⟨S1x256x256, .f32⟩
  | .local _ .vmem, ⟨5, _⟩ => ⟨S1x256x256, .f32⟩
  | .local _ .vmem, ⟨6, _⟩ => ⟨S1x256, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S256x256_S256x256_1_0 : S256x256.Transposes [1, 0] S256x256
  bitsLt_bf16_f32 : FTy.bits .bf16 < FTy.bits .f32
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  iota_S256x256_d0_w32 : S256x256.Iotas .tc 32 [0]
  rotates_S256x256_d0 : S256x256.Rotates 0 none
  broadcasts_S1x256_S256x256 : S1x256.Broadcasts S256x256
  slices_S256x256_o255_0_S1x256 : S256x256.Slices ![255, 0] S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256x256_S1x256x256 : S256x256.ShapeCasts S1x256x256
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S16x4096x256.size a
  hwx0_0 : ∀ i : grid0.Coords, EltTy.bits .f32 = 32 ∨ (Rect.block (s := S16x4096x256) S1x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x256x256.size a < S16x4095x256.size a
  hwx0_3 : ∀ i : grid0.Coords, EltTy.bits .f32 = 32 ∨ (Rect.unit (s := S16x4095x256) (fun a => cc0_transform_3 i a * S1x256x256.size a) (fun a => (Pipeline.Clip.of (cc0_transform_3 i a) (S1x256x256.size a) (S16x4095x256.size a)).extent (S1x256x256.size a)) fun a => Pipeline.Clip.inb (Pipeline.Clip.ok_of (hstart0_3 i a))).WholeWords (EltTy.packing .f32)
  hwxs0_3 : ∀ i : grid0.Coords, EltTy.bits .f32 = 32 ∨ (Rect.unit (s := S1x256x256) (fun _ => 0) (fun a => (Pipeline.Clip.of (cc0_transform_3 i a) (S1x256x256.size a) (S16x4095x256.size a)).extent (S1x256x256.size a)) fun a => (Nat.zero_add _).trans_le (Pipeline.Clip.extent_le (Pipeline.Clip.ok_of (hstart0_3 i a)))).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_arg1) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v3) S1x256x256.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096 : Shape := ⟨2, ![16, 4096]⟩
abbrev S16x4096x256 : Shape := ⟨3, ![16, 4096, 256]⟩
abbrev S16 : Shape := ⟨1, ![16]⟩
abbrev S256x256 : Shape := ⟨2, ![256, 256]⟩
abbrev S256 : Shape := ⟨1, ![256]⟩
abbrev S_ : Shape := ⟨0, ![]⟩
abbrev S16x4095x256 : Shape := ⟨3, ![16, 4095, 256]⟩
abbrev S1x1x256 : Shape := ⟨3, ![1, 1, 256]⟩

abbrev nBuf : Space → Nat
  | .hbm => 13
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S16x4096x256, .f32⟩
  | .hbm, ⟨2, _⟩ => ⟨S16, .i32⟩
  | .hbm, ⟨3, _⟩ => ⟨S256x256, .f32⟩
  | .hbm, ⟨4, _⟩ => ⟨S256, .f32⟩
  | .hbm, ⟨5, _⟩ => ⟨S_, .f32⟩
  | .hbm, ⟨6, _⟩ => ⟨S_, .f32⟩
  | .hbm, ⟨7, _⟩ => ⟨S16x4096x256, .f32⟩
  | .hbm, ⟨8, _⟩ => ⟨S16x4095x256, .f32⟩
  | .hbm, ⟨9, _⟩ => ⟨S16x4095x256, .f32⟩
  | .hbm, ⟨10, _⟩ => ⟨S1x1x256, .f32⟩
  | .hbm, ⟨11, _⟩ => ⟨S16x4095x256, .f32⟩
  | .hbm, ⟨12, _⟩ => ⟨S16x4095x256, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S16x4096x256_S16x4096x256_w1s1p0_0_w4096s1p4095_0_w1s1p0_0 : S16x4096x256.ReduceWindows (![1, 4096, 1] : Fin 3 → Nat) ![1, 1, 1] ![0, 4095, 0] ![0, 0, 0] S16x4096x256
  h_S_ : 0 < S_.numel
  slices_S16x4096x256_S16x4095x256_0_0_0 : S16x4096x256.Slices ![0, 0, 0] S16x4095x256
  bcast_S256_S1x1x256_2 : S256.BroadcastsInDim S1x1x256 (![2] : Fin 1 → Fin S1x1x256.rank)
  bcast_S1x1x256_S16x4095x256_0_1_2 : S1x1x256.BroadcastsInDim S16x4095x256 (![0, 1, 2] : Fin 3 → Fin S16x4095x256.rank)
  dot_S16x4095x256_S256x256_S16x4095x256_2_1_01_0_n_n_wf : DotDims.WF S16x4095x256 S256x256 S16x4095x256 [2] [1] [0, 1] [0] [] []

variable [Facts₀]

def dot_S16x4095x256_S256x256_S16x4095x256_2_1_01_0_n_n : DotDims S16x4095x256 S256x256 S16x4095x256 where
  lhsContracting := [2]
  rhsContracting := [1]
  lhsNonContracting := [0, 1]
  rhsNonContracting := [0]
  lhsBatch := []
  rhsBatch := []
  wf := dot_S16x4095x256_S256x256_S16x4095x256_2_1_01_0_n_n_wf

class Facts : Prop extends Facts₀ where

variable [Facts]
-- ==== Proof.RefRun.lean ====
/-
  The reference program's run: its @main is a straight line of eight host operations (the constant −∞ and
  its broadcast, the windowed running maximum, the slice that drops the last time step, the contraction
  with W, the two broadcasts of the bias, the sum), so every execution ends with the result buffer at the
  operations' composed term of the argument arrays, and the arguments as they were.
-/
import proofs.«110039_j59124519797164_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's eight operations in order, the called function's three standing where the call is. -/
abbrev ops : List (HloOp τ sig (Elt F)) :=
  [ TRef.nullary (TRef.of (T := ⟨S_, .f32⟩) main_call0_cst) (constant S_ .f32 0xFF800000#32),
    TRef.unary (TRef.of (T := ⟨S_, .f32⟩) main_call0_cst) (TRef.of (T := ⟨S_, .f32⟩) main_call0_v0) (broadcastInDim S_ ![] bcast_S_S_),
    TRef.binary (TRef.of (T := ⟨S16x4096x256, .f32⟩) main_arg1) (TRef.of (T := ⟨S_, .f32⟩) main_call0_v0) (TRef.of (T := ⟨S16x4096x256, .f32⟩) main_v0)
      (fun x v => Host.reduceWindow FloatOps.maximumf ![1, 4096, 1] ![1, 1, 1] ![0, 4095, 0] ![0, 0, 0] x v reduceWindows_S16x4096x256_S16x4096x256_w1s1p0_0_w4096s1p4095_0_w1s1p0_0 h_S_),
    unary main_v0 main_v1 ((extractStridedSlice S16x4095x256 ![0, 0, 0] · slices_S16x4096x256_S16x4095x256_0_0_0) : (⟨S16x4096x256, .f32⟩ : BufTy).Contents (Elt F) → (⟨S16x4095x256, .f32⟩ : BufTy).Contents (Elt F)),
    binary main_v1 main_arg3 main_v2 ((fun l r => Host.dotGeneral dot_S16x4095x256_S256x256_S16x4095x256_2_1_01_0_n_n none l r) : (⟨S16x4095x256, .f32⟩ : BufTy).Contents (Elt F) → (⟨S256x256, .f32⟩ : BufTy).Contents (Elt F) → (⟨S16x4095x256, .f32⟩ : BufTy).Contents (Elt F)),
    unary main_arg4 main_v3 (broadcastInDim S1x1x256 ![2] bcast_S256_S1x1x256_2 : (⟨S256, .f32⟩ : BufTy).Contents (Elt F) → (⟨S1x1x256, .f32⟩ : BufTy).Contents (Elt F)),
    unary main_v3 main_v4 (broadcastInDim S16x4095x256 ![0, 1, 2] bcast_S1x1x256_S16x4095x256_0_1_2 : (⟨S1x1x256, .f32⟩ : BufTy).Contents (Elt F) → (⟨S16x4095x256, .f32⟩ : BufTy).Contents (Elt F)),
    binary main_v2 main_v4 main_v5 (addf : (⟨S16x4095x256, .f32⟩ : BufTy).Contents (Elt F) → (⟨S16x4095x256, .f32⟩ : BufTy).Contents (Elt F) → (⟨S16x4095x256, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., unary_bufs_sub .., binary_bufs_sub .., unary_bufs_sub .., unary_bufs_sub .., binary_bufs_sub ..⟩

/-- The windowed running maximum along the time axis: at each time the maximum, from −∞, over the window of
    4096 positions ending there, positions before the start reading −∞. -/
def runmaxStage (x1 : (⟨S16x4096x256, .f32⟩ : BufTy).Contents (Elt F)) : (⟨S16x4096x256, .f32⟩ : BufTy).Contents (Elt F) :=
  Host.reduceWindow FloatOps.maximumf ![1, 4096, 1] ![1, 1, 1] ![0, 4095, 0] ![0, 0, 0] x1
    (broadcastInDim S_ ![] bcast_S_S_ (constant S_ .f32 0xFF800000#32))
    reduceWindows_S16x4096x256_S16x4096x256_w1s1p0_0_w4096s1p4095_0_w1s1p0_0 h_S_

/-- The result as one term of the three arguments it depends on. -/
def term (x1 : (⟨S16x4096x256, .f32⟩ : BufTy).Contents (Elt F)) (x3 : (⟨S256x256, .f32⟩ : BufTy).Contents (Elt F))
    (x4 : (⟨S256, .f32⟩ : BufTy).Contents (Elt F)) : (⟨S16x4095x256, .f32⟩ : BufTy).Contents (Elt F) :=
  addf (Host.dotGeneral dot_S16x4095x256_S256x256_S16x4095x256_2_1_01_0_n_n none
      (extractStridedSlice S16x4095x256 ![0, 0, 0] (runmaxStage x1) slices_S16x4096x256_S16x4095x256_0_0_0) x3)
    (broadcastInDim S16x4095x256 ![0, 1, 2] bcast_S1x1x256_S16x4095x256_0_1_2 (broadcastInDim S1x1x256 ![2] bcast_S256_S1x1x256_2 x4))

/-- What the result buffer holds after the eight operations, from any contents `V` of the buffers: the term
    of `V` at the three arguments (the typed references of the called function are casts along identities). -/
theorem after_v5 (V : Valuation τ sig (Elt F)) :
    after (ops (F := F)) V (Proc.devRef .tc main_v5)
      = term (V (Proc.devRef .tc main_arg1)) (V (Proc.devRef .tc main_arg3)) (V (Proc.devRef .tc main_arg4)) := by
  after_results
  simp only [cast_eq]
  rfl

/-- Every weakly fair execution of @main terminates with the result at `term` of the arguments' launch contents
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5)
          = term (m ((c.tc : Thread nD τ).loc main_arg1)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v5).trans ((after_v5 _).trans rfl),
      (h c main_arg0).trans (by after_results <;> rfl),
      (h c main_arg1).trans (by after_results <;> rfl),
      (h c main_arg2).trans (by after_results <;> rfl),
      (h c main_arg3).trans (by after_results <;> rfl),
      (h c main_arg4).trans (by after_results <;> rfl)⟩)
    (run_seq scopedRefs_eq scopedSems_eq defs main (fun _ => ops) main_eq (fun _ => ops_sub) m ρ)

end Cert.ReferenceIdeal.RefRun

end
-- ==== Proof.PrefixMax.lean ====
/-
  Prefix maxima in a linear order with a least element (here: the extended reals, least element -∞).

  A running maximum along a sequence can be computed tile by tile: inside a tile of 256 entries by eight
  doubling steps — after the step of width w every position holds the maximum of the 2w entries ending at
  it, or of all entries from the tile's start when there are fewer — and across tiles by carrying the
  maximum of everything before the tile. Both are the supremum of an initial segment of the sequence, and
  so is a left fold of max, from the least element, over a window whose out-of-range positions read the
  least element.
-/
import Mathlib.Order.Interval.Finset.Nat
import Mathlib.Data.Finset.Lattice.Fold
import Mathlib.Data.Fintype.Basic
import Mathlib.Data.List.FinRange
import Mathlib.Data.Fintype.EquivFin

namespace Cert.PrefixMax

variable {α : Type*} [LinearOrder α] [OrderBot α]

/-- The maximum of `x` over the `w` positions ending at `r`; over the positions `0 … r` when `r < w`. -/
def win (x : ℕ → α) (w r : ℕ) : α := (Finset.Icc (r + 1 - w) r).sup x

/-- The maximum of the first `n` terms of `X` (the least element when `n = 0`). -/
def pre (X : ℕ → α) (n : ℕ) : α := (Finset.range n).sup X

theorem win_one (x : ℕ → α) (r : ℕ) : win x 1 r = x r := by
  unfold win
  rw [show r + 1 - 1 = r from by omega, Finset.Icc_self, Finset.sup_singleton]

/-- One doubling step: the window of width `w` ending at `r`, joined with the window of width `w` ending
    `w` places earlier (nothing, when there is no such place), is the window of width `2w` ending at `r`. -/
theorem win_double (x : ℕ → α) (w r : ℕ) :
    max (win x w r) (if w ≤ r then win x w (r - w) else ⊥) = win x (2 * w) r := by
  unfold win
  split_ifs with h
  · rw [← Finset.sup_union]
    congr 1
    ext k
    simp only [Finset.mem_union, Finset.mem_Icc]
    omega
  · rw [max_bot_right]
    have e : r + 1 - w = r + 1 - 2 * w := by omega
    rw [e]

/-- A window at least as wide as the distance from the start is the whole initial segment. -/
theorem win_full (x : ℕ → α) (n r : ℕ) (h : r < n) : win x n r = pre x (r + 1) := by
  unfold win pre
  congr 1
  ext k
  simp only [Finset.mem_Icc, Finset.mem_range]
  omega

/-- A tile starting at `s`: the maximum of its first `r + 1` entries, joined with the maximum of everything
    before the tile, is the maximum of the first `s + r + 1` entries. -/
theorem pre_tile (X : ℕ → α) (s r : ℕ) :
    max (pre (fun k => X (s + k)) (r + 1)) (pre X s) = pre X (s + r + 1) := by
  unfold pre
  have e : Finset.range (s + r + 1) = Finset.range s ∪ (Finset.range (r + 1)).map (addLeftEmbedding s) := by
    rw [Nat.add_assoc]; exact Finset.range_add_eq_union _ _
  rw [e, Finset.sup_union, Finset.sup_map, max_comm]
  rfl

theorem pre_zero (X : ℕ → α) : pre X 0 = ⊥ := by
  unfold pre
  rw [Finset.range_zero, Finset.sup_empty]

/-- Extending the initial segment by one entry. -/
theorem pre_succ (X : ℕ → α) (n : ℕ) : pre X (n + 1) = max (pre X n) (X n) := by
  unfold pre
  rw [Finset.range_add_one, Finset.sup_insert, max_comm]

/-- Two sequences that agree below `n` have the same maximum of their first `n` terms. -/
theorem pre_congr {X Y : ℕ → α} {n : ℕ} (h : ∀ k, k < n → X k = Y k) : pre X n = pre Y n := by
  unfold pre
  exact Finset.sup_congr rfl fun k hk => h k (Finset.mem_range.mp hk)

/-- A left fold of max over a list, from `a`, is `a` joined with the supremum over the list's members. -/
theorem foldl_max {ι : Type*} [DecidableEq ι] (f : ι → α) (l : List ι) (a : α) :
    l.foldl (fun r k => max r (f k)) a = max a (l.toFinset.sup f) := by
  induction l generalizing a with
  | nil => simp
  | cons b l ih =>
    rw [List.foldl_cons, ih, List.toFinset_cons, Finset.sup_insert, max_assoc]

/-- Over all of `Fin n`, from the least element: the supremum over `Fin n`. -/
theorem foldl_max_finRange {n : ℕ} (f : Fin n → α) :
    (List.finRange n).foldl (fun r k => max r (f k)) ⊥ = Finset.univ.sup f := by
  rw [foldl_max, List.toFinset_finRange, max_bot_left]

/-- A supremum over a finite type of terms each of which is either the least element or one of
    `X 0, …, X l`, every one of these occurring, is the maximum of `X 0, …, X l`. -/
theorem sup_eq_pre {ι : Type*} [Fintype ι] (g : ι → α) (X : ℕ → α) (l : ℕ)
    (hle : ∀ i, g i = ⊥ ∨ ∃ k, k ≤ l ∧ g i = X k) (hge : ∀ k, k ≤ l → ∃ i, g i = X k) :
    Finset.univ.sup g = pre X (l + 1) := by
  unfold pre
  apply le_antisymm
  · apply Finset.sup_le
    intro i _
    rcases hle i with h | ⟨k, hk, h⟩
    · rw [h]; exact bot_le
    · rw [h]; exact Finset.le_sup (f := X) (Finset.mem_range.mpr (by omega))
  · apply Finset.sup_le
    intro k hk
    obtain ⟨i, hi⟩ := hge k (by have := Finset.mem_range.mp hk; omega)
    rw [← hi]
    exact Finset.le_sup (f := g) (Finset.mem_univ i)

end Cert.PrefixMax
-- ==== Proof.Spec.lean ====
/-
  The function both programs compute, index by index, over the extended reals:

      out[b, l, o]  =  Σ_v  ( max_{k ≤ l} codes[b, k, v] ) · W[o, v]  +  bias[o]        (l < 4095)

  a running maximum along the time axis, then an affine map of the feature axis. The running maximum of a
  column is the maximum of an initial segment of the column read as a sequence (−∞ past its end, which no
  index of the result reaches).
-/
import Idealize.ShloMosaic.PureOps.Ideal
import Idealize.ShloMosaic.Lib.ValueIdx
import proofs.«110039_j59124519797164_2_alg».proof.Proof.PrefixMax

noncomputable section

open scoped BigOperators

namespace Cert.Spec

open Idealize.ShloMosaic Idealize.ShloMosaic.ValueIdx

/-- Column `(b, v)` of `codes` along the time axis, as a sequence; −∞ from entry 4096 on. -/
def col (codes : (⟨3, ![16, 4096, 256]⟩ : Shape).Idx → EReal) (b : Fin 16) (v : Fin 256) : ℕ → EReal :=
  fun k => if h : k < 4096 then codes (ix3 b ⟨k, h⟩ v) else ⊥

/-- The running maximum of column `(b, v)` up to and including time `l`. -/
def runmax (codes : (⟨3, ![16, 4096, 256]⟩ : Shape).Idx → EReal) (b : Fin 16) (l : ℕ) (v : Fin 256) : EReal :=
  PrefixMax.pre (col codes b v) (l + 1)

/-- The result: the running maxima of a row contracted with row `o` of `W`, plus `bias[o]`. -/
def G (codes : (⟨3, ![16, 4096, 256]⟩ : Shape).Idx → EReal) (W : (⟨2, ![256, 256]⟩ : Shape).Idx → EReal)
    (bias : (⟨1, ![256]⟩ : Shape).Idx → EReal) : (⟨3, ![16, 4095, 256]⟩ : Shape).Idx → EReal :=
  fun i => (∑ v : Fin 256, runmax codes (i 0) (i 1).val v * W (ix2 (i 2) v)) + bias (ix1 (i 2))

/-- The f32 word of −∞ denotes the least extended real. -/
theorem neg_inf : Ideal.ofBits .f32 0xFF800000#32 = (⊥ : EReal) := by
  simp [Ideal.ofBits, Ideal.ieee]

end Cert.Spec

end
-- ==== Proof.RefSpec.lean ====
/-
  The reference's composed term is the specification, index by index.

  The windowed maximum at time l folds max, from −∞, over the 4096 window positions ending at l; position n
  reads codes at time l + n − 4095 when that is a time of the array and −∞ otherwise, so the fold is the
  maximum over the times 0 … l. The slice keeps the times below 4095; the contraction pairs the feature axis
  of the maxima with the second axis of W; the bias is broadcast along batch and time.
-/
import proofs.«110039_j59124519797164_2_alg».proof.Proof.RefRun
import proofs.«110039_j59124519797164_2_alg».proof.Proof.Spec
import Idealize.ShloMosaic.PureOps.Ideal.Laws
import Idealize.ShloMosaic.Lib.ValueIdx
import Idealize.ShloMosaic.Lib.Pipeline.Value

noncomputable section

open scoped BigOperators

namespace Cert.ReferenceIdeal.RefSpec

open Cert.ReferenceIdeal Cert.ReferenceIdeal.Gen Cert.ReferenceIdeal.RefRun Idealize.ShloMosaic Idealize.ShloMosaic.ValueIdx Cert.PrefixMax

/-- The window's shape: one batch entry, 4096 times, one feature. -/
abbrev Wsh : Shape := ⟨3, ![1, 4096, 1]⟩

/-- The windowed running maximum at `(b, l, v)` is the maximum of column `(b, v)` over the times `0 … l`. -/
theorem runmax_apply (x1 : (⟨S16x4096x256, .f32⟩ : BufTy).Contents (Elt Ideal)) (j : S16x4096x256.Idx) :
    runmaxStage (F := Ideal) x1 j = pre (Cert.Spec.col x1 (j 0) (j 2)) ((j 1).val + 1) := by
  have j0 : (j 0).val < 16 := (j 0).isLt
  have j1 : (j 1).val < 4096 := (j 1).isLt
  have j2 : (j 2).val < 256 := (j 2).isLt
  unfold runmaxStage Host.reduceWindow
  dsimp only
  have hv : broadcastInDim S_ ![] bcast_S_S_ (constant (F := Ideal) S_ .f32 0xFF800000#32) (Shape.Idx.first h_S_) = (⊥ : EReal) :=
    Cert.Spec.neg_inf
  rw [hv]
  simp only [Ideal.maximumf_def]
  rw [foldl_max_finRange]
  apply sup_eq_pre
  · -- every window position reads −∞ or one of the times 0 … l
    intro n
    have q0 : ((Wsh.rowMajor.symm n) 0).val < 1 := Fin.isLt _
    have q1 : ((Wsh.rowMajor.symm n) 1).val < 4096 := Fin.isLt _
    have q2 : ((Wsh.rowMajor.symm n) 2).val < 1 := Fin.isLt _
    split
    · rename_i hin
      right
      have h1 : 4095 ≤ (j 1).val * 1 + ((Wsh.rowMajor.symm n) 1).val
          ∧ (j 1).val * 1 + ((Wsh.rowMajor.symm n) 1).val - 4095 < 4096 := hin 1
      refine ⟨(j 1).val + ((Wsh.rowMajor.symm n) 1).val - 4095, by omega, ?_⟩
      unfold Cert.Spec.col
      rw [dif_pos (by omega)]
      refine congrArg x1 (funext fun a => Fin.ext ?_)
      match a with
      | ⟨0, _⟩ => show (j 0).val * 1 + ((Wsh.rowMajor.symm n) 0).val - 0 = (j 0).val; omega
      | ⟨1, _⟩ => show (j 1).val * 1 + ((Wsh.rowMajor.symm n) 1).val - 4095 = (j 1).val + ((Wsh.rowMajor.symm n) 1).val - 4095; omega
      | ⟨2, _⟩ => show (j 2).val * 1 + ((Wsh.rowMajor.symm n) 2).val - 0 = (j 2).val; omega
    · left; rfl
  · -- and every time k ≤ l is read, by the window position 4095 − l + k
    intro k hk
    refine ⟨({ rank := 3, size := ![1, 4096, 1] } : Shape).rowMajor
      (ix3 (0 : Fin 1) (⟨4095 - (j 1).val + k, by omega⟩ : Fin 4096) (0 : Fin 1)), ?_⟩
    simp only [Equiv.symm_apply_apply]
    split
    · unfold Cert.Spec.col
      rw [dif_pos (by omega)]
      refine congrArg x1 (funext fun a => Fin.ext ?_)
      match a with
      | ⟨0, _⟩ => show (j 0).val * 1 + 0 - 0 = (j 0).val; omega
      | ⟨1, _⟩ => show (j 1).val * 1 + (4095 - (j 1).val + k) - 4095 = k; omega
      | ⟨2, _⟩ => show (j 2).val * 1 + 0 - 0 = (j 2).val; omega
    · rename_i hin
      exfalso
      apply hin
      intro a
      match a with
      | ⟨0, _⟩ => show 0 ≤ (j 0).val * 1 + 0 ∧ (j 0).val * 1 + 0 - 0 < 16; omega
      | ⟨1, _⟩ => show 4095 ≤ (j 1).val * 1 + (4095 - (j 1).val + k) ∧ (j 1).val * 1 + (4095 - (j 1).val + k) - 4095 < 4096; omega
      | ⟨2, _⟩ => show 0 ≤ (j 2).val * 1 + 0 ∧ (j 2).val * 1 + 0 - 0 < 256; omega

-- from here on the stage is only read through `runmax_apply`: its fold over 4096 positions is never unfolded
attribute [local irreducible] runmaxStage

/-- The slice drops the last time step and reads the others where they were. -/
theorem sliced_apply (x1 : (⟨S16x4096x256, .f32⟩ : BufTy).Contents (Elt Ideal)) (b : Fin 16) (l : Fin 4095) (v : Fin 256) :
    extractStridedSlice S16x4095x256 ![0, 0, 0] (runmaxStage (F := Ideal) x1) slices_S16x4096x256_S16x4095x256_0_0_0 (ix3 b l v)
      = Cert.Spec.runmax x1 b l.val v := by
  have key : ∀ y : S16x4096x256.Idx → EReal,
      extractStridedSlice S16x4095x256 ![0, 0, 0] y slices_S16x4096x256_S16x4095x256_0_0_0 (ix3 b l v)
        = y (ix3 b (⟨l.val, by omega⟩ : Fin 4096) v) := fun y =>
    extractStridedSlice_apply ![0, 0, 0] y slices_S16x4096x256_S16x4095x256_0_0_0 (ix3 b l v) (ix3 b (⟨l.val, by omega⟩ : Fin 4096) v)
      (fun a => by
        match a with
        | ⟨0, _⟩ => show b.val = 0 + b.val; omega
        | ⟨1, _⟩ => show l.val = 0 + l.val; omega
        | ⟨2, _⟩ => show v.val = 0 + v.val; omega)
  rw [key, runmax_apply]
  rfl

/-- The reference's term is the specification. -/
theorem term_eq (x1 : (⟨S16x4096x256, .f32⟩ : BufTy).Contents (Elt Ideal)) (x3 : (⟨S256x256, .f32⟩ : BufTy).Contents (Elt Ideal))
    (x4 : (⟨S256, .f32⟩ : BufTy).Contents (Elt Ideal)) :
    term (F := Ideal) x1 x3 x4 = Cert.Spec.G x1 x3 x4 := by
  funext i
  have i1 : (i 1).val < 4095 := (i 1).isLt
  unfold term Cert.Spec.G
  rw [addf_apply]
  refine congrArg₂ (fun a b : EReal => a + b) ?_ ?_
  · -- the contraction: the sum over the feature axis of (running maximum) · W[o, v]
    simp only [Host.dotGeneral]
    rw [Ideal.dotGeneral_apply, ← Equiv.sum_comp (contrEquiv1 dot_S16x4095x256_S256x256_S16x4095x256_2_1_01_0_n_n 256 rfl rfl).symm]
    refine Finset.sum_congr rfl fun k _ => ?_
    have hk := contrEquiv1_symm_val dot_S16x4095x256_S256x256_S16x4095x256_2_1_01_0_n_n 256 rfl rfl k
    -- the operand indices of the contraction at output (b, l, o) and feature v: (b, l, v) on the left, (o, v) on the right
    have l0 : ∀ q, (dot_S16x4095x256_S256x256_S16x4095x256_2_1_01_0_n_n.lhsIdx i q 0).val = (i 0).val := fun q => by
      unfold DotDims.lhsIdx
      rw [dif_neg (show ¬(0 : Fin S16x4095x256.rank) ∈ dot_S16x4095x256_S256x256_S16x4095x256_2_1_01_0_n_n.lhsBatch by decide),
        dif_pos (show (0 : Fin S16x4095x256.rank) ∈ dot_S16x4095x256_S256x256_S16x4095x256_2_1_01_0_n_n.lhsNonContracting by decide)]
      rfl
    have l1 : ∀ q, (dot_S16x4095x256_S256x256_S16x4095x256_2_1_01_0_n_n.lhsIdx i q 1).val = (i 1).val := fun q => by
      unfold DotDims.lhsIdx
      rw [dif_neg (show ¬(1 : Fin S16x4095x256.rank) ∈ dot_S16x4095x256_S256x256_S16x4095x256_2_1_01_0_n_n.lhsBatch by decide),
        dif_pos (show (1 : Fin S16x4095x256.rank) ∈ dot_S16x4095x256_S256x256_S16x4095x256_2_1_01_0_n_n.lhsNonContracting by decide)]
      rfl
    have l2 : ∀ q, (dot_S16x4095x256_S256x256_S16x4095x256_2_1_01_0_n_n.lhsIdx i q 2).val = (q ⟨0, by decide⟩).val := fun q =>
      dot_S16x4095x256_S256x256_S16x4095x256_2_1_01_0_n_n.lhsIdx_val_of_single rfl i q
    have r0 : ∀ q, (dot_S16x4095x256_S256x256_S16x4095x256_2_1_01_0_n_n.rhsIdx i q 0).val = (i 2).val := fun q => by
      unfold DotDims.rhsIdx
      rw [dif_neg (show ¬(0 : Fin S256x256.rank) ∈ dot_S16x4095x256_S256x256_S16x4095x256_2_1_01_0_n_n.rhsBatch by decide),
        dif_pos (show (0 : Fin S256x256.rank) ∈ dot_S16x4095x256_S256x256_S16x4095x256_2_1_01_0_n_n.rhsNonContracting by decide)]
      rfl
    have r1 : ∀ q, (dot_S16x4095x256_S256x256_S16x4095x256_2_1_01_0_n_n.rhsIdx i q 1).val = (q ⟨0, by decide⟩).val := fun q =>
      dot_S16x4095x256_S256x256_S16x4095x256_2_1_01_0_n_n.rhsIdx_val_of_single rfl i q
    have el : dot_S16x4095x256_S256x256_S16x4095x256_2_1_01_0_n_n.lhsIdx i
        ((contrEquiv1 dot_S16x4095x256_S256x256_S16x4095x256_2_1_01_0_n_n 256 rfl rfl).symm k) = ix3 (i 0) (i 1) k :=
      funext fun a => Fin.ext (by
        match a with
        | ⟨0, _⟩ => exact l0 _
        | ⟨1, _⟩ => exact l1 _
        | ⟨2, _⟩ => exact (l2 _).trans hk)
    have er : dot_S16x4095x256_S256x256_S16x4095x256_2_1_01_0_n_n.rhsIdx i
        ((contrEquiv1 dot_S16x4095x256_S256x256_S16x4095x256_2_1_01_0_n_n 256 rfl rfl).symm k) = ix2 (i 2) k :=
      funext fun a => Fin.ext (by
        match a with
        | ⟨0, _⟩ => exact r0 _
        | ⟨1, _⟩ => exact (r1 _).trans hk)
    rw [el, er]
    refine congrArg₂ (fun a b : EReal => a * b) ?_ rfl
    exact sliced_apply x1 (i 0) (i 1) k
  · -- the bias, broadcast along batch and time
    rw [broadcastInDim_apply _ bcast_S1x1x256_S16x4095x256_0_1_2 (broadcastInDim S1x1x256 ![2] bcast_S256_S1x1x256_2 x4) i
      (ix3 (0 : Fin 1) (0 : Fin 1) (i 2)) (fun a => by
        match a with
        | ⟨0, _⟩ => show 0 = if (1 : Nat) = 1 then 0 else (i 0).val; rw [if_pos rfl]
        | ⟨1, _⟩ => show 0 = if (1 : Nat) = 1 then 0 else (i 1).val; rw [if_pos rfl]
        | ⟨2, _⟩ => show (i 2).val = if (256 : Nat) = 1 then 0 else (i 2).val; rw [if_neg (by decide)]),
      broadcastInDim_apply _ bcast_S256_S1x1x256_2 x4 (ix3 (0 : Fin 1) (0 : Fin 1) (i 2)) (ix1 (i 2)) (fun a => by
        match a with
        | ⟨0, _⟩ => show (i 2).val = if (256 : Nat) = 1 then 0 else (i 2).val; rw [if_neg (by decide)])]

end Cert.ReferenceIdeal.RefSpec

end
-- ==== Proof.Pieces.lean ====
/-
  What one run of the body leaves behind, as values of what it loaded.

  At the first time tile of a batch row the body first stores a row of −∞ to the carried scratch and then
  reads it back; at every other tile it reads the row the tile before left. In both cases it then stores
  the last row of the running-maximum tile to the scratch and the projected tile to the output block, each
  by one store that covers its buffer, so the buffer ends holding that store's value.
-/
import proofs.«110039_j59124519797164_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- The row index of every entry of a tile. -/
abbrev rows : IVec S256x256 32 := iota .tc S256x256 32 [0] iota_S256x256_d0_w32

/-- A later tile: the output block ends at the projected tile computed over the carried row `xs0`. -/
theorem out_B (c : Dev nD) (i : grid0.Coords) (arg2 : Memref sig .tc .vmem S1x256x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S1x256x256 .f32) (harg5 : arg5.IsWhole) (arg6 : Memref sig .tc .vmem S1x256 .f32) (harg6 : arg6.IsWhole) (hc0 : ¬cond0_0 i)
    (x0 : Vec F S1x256x256 .f32) (x1 : Vec F S256x256 .bf16) (x2 : Vec F S1x256 .f32) (xs0 : Vec F S1x256 .f32) :
    out0_B_3 c i arg2 harg2 arg3 harg3 arg4 harg4 arg5 harg5 arg6 harg6 hc0 x0 x1 x2 xs0 = k0_pay3 rows (k0_pay5 x0) 32#32 xs0 x1 x2 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  rw [View.canon_unit_zero zero3]
  simp only [View.readAt_eq_ld, harg2.read_unread, harg3.read_unread, harg4.read_unread, harg6.read_unread,
    View.ld_unit_zero (S := S1x256x256) zero3, View.ld_unit_zero (S := S256x256) zero2, View.ld_unit_zero (S := S1x256) zero2]

/-- A later tile: the scratch ends at the last row of the running-maximum tile over the carried row `xs0`. -/
theorem carry_B (c : Dev nD) (i : grid0.Coords) (arg2 : Memref sig .tc .vmem S1x256x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S1x256x256 .f32) (harg5 : arg5.IsWhole) (arg6 : Memref sig .tc .vmem S1x256 .f32) (harg6 : arg6.IsWhole) (hc0 : ¬cond0_0 i)
    (x0 : Vec F S1x256x256 .f32) (x1 : Vec F S256x256 .bf16) (x2 : Vec F S1x256 .f32) (xs0 : Vec F S1x256 .f32) :
    sout0_B_0 c i arg2 harg2 arg3 harg3 arg4 harg4 arg5 harg5 arg6 harg6 hc0 x0 x1 x2 xs0 = k0_pay2 rows (k0_pay5 x0) 32#32 xs0 := by
  unfold sout0_B_0
  rw [View.read_writes_eq_canon _ _ _ (scover0_B_0 c i arg2 harg2 arg3 harg3 arg4 harg4 arg5 harg5 arg6 harg6 hc0 x0 x1 x2 xs0)]
  unfold kernelRun0_B
  dsimp only
  sl_unfold_words
  rw [View.canon_unit_zero zero2]
  simp only [View.readAt_eq_ld, harg2.read_unread, harg3.read_unread, harg4.read_unread, harg6.read_unread,
    View.ld_unit_zero (S := S1x256x256) zero3, View.ld_unit_zero (S := S256x256) zero2, View.ld_unit_zero (S := S1x256) zero2]

/-- A first tile: the output block ends at the projected tile computed over a carried row of −∞. -/
theorem out_A (c : Dev nD) (i : grid0.Coords) (arg2 : Memref sig .tc .vmem S1x256x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S1x256x256 .f32) (harg5 : arg5.IsWhole) (arg6 : Memref sig .tc .vmem S1x256 .f32) (harg6 : arg6.IsWhole) (hc0 : cond0_0 i)
    (x0 : Vec F S1x256x256 .f32) (x1 : Vec F S256x256 .bf16) (x2 : Vec F S1x256 .f32) :
    out0_A_3 c i arg2 harg2 arg3 harg3 arg4 harg4 arg5 harg5 arg6 harg6 hc0 x0 x1 x2 = k0_pay3 rows (k0_pay5 x0) 32#32 (k0_pay4 (F := F)) x1 x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero zero3]
  simp only [View.readCov_unit_zero (S := S1x256) _ zero2, View.readAt_eq_ld, harg2.read_unread, harg3.read_unread, harg4.read_unread,
    View.ld_unit_zero (S := S1x256x256) zero3, View.ld_unit_zero (S := S256x256) zero2, View.ld_unit_zero (S := S1x256) zero2]

/-- A first tile: the scratch ends at the last row of the running-maximum tile over a carried row of −∞. -/
theorem carry_A (c : Dev nD) (i : grid0.Coords) (arg2 : Memref sig .tc .vmem S1x256x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S1x256x256 .f32) (harg5 : arg5.IsWhole) (arg6 : Memref sig .tc .vmem S1x256 .f32) (harg6 : arg6.IsWhole) (hc0 : cond0_0 i)
    (x0 : Vec F S1x256x256 .f32) (x1 : Vec F S256x256 .bf16) (x2 : Vec F S1x256 .f32) :
    sout0_A_0 c i arg2 harg2 arg3 harg3 arg4 harg4 arg5 harg5 arg6 harg6 hc0 x0 x1 x2 = k0_pay2 rows (k0_pay5 x0) 32#32 (k0_pay4 (F := F)) := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_cons_unit_zero (S := S1x256) zero2]
  simp only [View.readCov_unit_zero (S := S1x256) _ zero2, View.readAt_eq_ld, harg2.read_unread, harg3.read_unread, harg4.read_unread,
    View.ld_unit_zero (S := S1x256x256) zero3, View.ld_unit_zero (S := S256x256) zero2, View.ld_unit_zero (S := S1x256) zero2]

end Cert.KernelIdeal.Pieces

end
-- ==== Proof.ScanRead.lean ====
/-
  The kernel body's arithmetic, read at an index over the extended reals.

  One step of the in-tile scan, of width w: every row r takes the maximum of itself and row r − w (rows are
  rotated w places toward higher indices, and the rows that wrapped around, r < w, are masked to −∞). After
  the steps of width 1, 2, 4, …, 128, row r of a 256-row tile holds the maximum of rows 0 … r. Joined with
  the carried row (the maximum of everything before the tile) it is the running maximum; its last row is the
  next carry; contracted with the transposed weight block and shifted by the bias row it is the output tile.
-/
import proofs.«110039_j59124519797164_2_alg».proof.Proof.Gen.KernelIdeal.Skeleton
import proofs.«110039_j59124519797164_2_alg».proof.Proof.PrefixMax
import proofs.«110039_j59124519797164_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.Affine

noncomputable section

open scoped BigOperators

namespace Cert.KernelIdeal.ScanRead

open Cert.KernelIdeal Cert.KernelIdeal.Gen Idealize.ShloMosaic Idealize.ShloMosaic.ValueIdx Cert.PrefixMax

/-- One scan step of width `s` on a tile. -/
def step (s : BitVec 32) (y : FVec Ideal S256x256 .f32) : FVec Ideal S256x256 .f32 :=
  maximumf y (select (cmpi .sge (iota .tc S256x256 32 [0] iota_S256x256_d0_w32) (broadcast S256x256 s))
    (dynamicRotate 0 s none y rotates_S256x256_d0) (broadcast S256x256 (Scalar.ofBits (F := Ideal) .f32 0xFF800000#32)))

/-- Column `v` of a tile as a sequence (−∞ past its 256 rows). -/
def tcol (x : FVec Ideal S256x256 .f32) (v : Fin 256) : ℕ → EReal :=
  fun k => if h : k < 256 then x (ix2 ⟨k, h⟩ v) else ⊥

/-- The row mask at row `r`: set exactly when `w ≤ r` (both far below 2³¹, so the signed comparison of the
    words is the comparison of the numbers). -/
theorem mask_apply (w r : ℕ) (hw : w < 256) (hr : r < 256) :
    IntOp.cmpi .sge (BitVec.ofNat 32 r) (BitVec.ofNat 32 w) = if w ≤ r then 1#1 else 0#1 := by
  have hr' : (BitVec.ofNat 32 r).toInt = (r : ℤ) := by
    rw [BitVec.toInt_eq_toNat_of_lt (by rw [BitVec.toNat_ofNat, Nat.mod_eq_of_lt (by omega)]; omega), BitVec.toNat_ofNat,
      Nat.mod_eq_of_lt (by omega)]
  have hw' : (BitVec.ofNat 32 w).toInt = (w : ℤ) := by
    rw [BitVec.toInt_eq_toNat_of_lt (by rw [BitVec.toNat_ofNat, Nat.mod_eq_of_lt (by omega)]; omega), BitVec.toNat_ofNat,
      Nat.mod_eq_of_lt (by omega)]
  split_ifs with h
  · rw [IntOp.cmpi_sge, hr', hw']; exact_mod_cast h
  · apply eq_zero_of_ne_one
    rw [IntOp.cmpi_sge, hr', hw']
    intro h'; exact h (by exact_mod_cast h')

/-- A scan step at row `r`, column `v`: the maximum of the entry and the entry `w` rows above, if there is one. -/
theorem step_apply (w : ℕ) (hw : w < 256) (y : FVec Ideal S256x256 .f32) (r v : Fin 256) :
    step (BitVec.ofNat 32 w) y (ix2 r v)
      = max (y (ix2 r v)) (if h : w ≤ r.val then y (ix2 ⟨r.val - w, by omega⟩ v) else ⊥) := by
  unfold step
  rw [maximumf_apply, select_apply]
  congr 1
  have hc : cmpi .sge (iota .tc S256x256 32 [0] iota_S256x256_d0_w32) (broadcast S256x256 (BitVec.ofNat 32 w)) (ix2 r v)
      = if w ≤ r.val then 1#1 else 0#1 := by
    show IntOp.cmpi .sge (iota .tc S256x256 32 [0] iota_S256x256_d0_w32 (ix2 r v)) (BitVec.ofNat 32 w) = _
    rw [iota_single_apply]
    exact mask_apply w r.val hw r.isLt
  rw [hc]
  by_cases h : w ≤ r.val
  · rw [if_pos h, dif_pos h, select_one]
    refine dynamicRotate_apply 0 _ y rotates_S256x256_d0 (ix2 r v) (ix2 ⟨r.val - w, by omega⟩ v) fun b => ?_
    have hr := r.isLt
    match b with
    | ⟨0, _⟩ =>
      show r.val - w = if (0 : Fin 2) = 0 then (r.val + 256 - (BitVec.ofNat 32 w).toNat % 256) % 256 else r.val
      rw [if_pos rfl, BitVec.toNat_ofNat, Nat.mod_eq_of_lt (show w < 2 ^ 32 by omega), Nat.mod_eq_of_lt hw]
      omega
    | ⟨1, _⟩ =>
      show v.val = if (1 : Fin 2) = 0 then _ else v.val
      rw [if_neg (by decide)]
  · rw [if_neg h, dif_neg h, select_zero]
    exact Cert.Spec.neg_inf

/-- A scan step doubles the window: from "row r holds the maximum of the w rows ending at r" to the same of 2w. -/
theorem step_win (w : ℕ) (hw : w < 256) (x y : FVec Ideal S256x256 .f32)
    (hy : ∀ (r v : Fin 256), y (ix2 r v) = win (tcol x v) w r.val) (r v : Fin 256) :
    step (BitVec.ofNat 32 w) y (ix2 r v) = win (tcol x v) (2 * w) r.val := by
  rw [step_apply w hw, hy, ← win_double]
  congr 1
  by_cases h : w ≤ r.val
  · rw [dif_pos h, if_pos h, hy]
  · rw [dif_neg h, if_neg h]

/-- The eight steps of widths 1, 2, …, 128: row r of the tile ends at the maximum of rows 0 … r. -/
theorem scan_apply (x : FVec Ideal S256x256 .f32) (r v : Fin 256) :
    step 128#32 (step 64#32 (step 32#32 (step 16#32 (step 8#32 (step 4#32 (step 2#32 (step 1#32 x))))))) (ix2 r v)
      = pre (tcol x v) (r.val + 1) := by
  have h0 : ∀ (r v : Fin 256), x (ix2 r v) = win (tcol x v) 1 r.val := fun r v => by
    rw [win_one]; unfold tcol; rw [dif_pos r.isLt]
  have h1 := step_win 1 (by omega) x x h0
  have h2 := step_win 2 (by omega) x _ h1
  have h4 := step_win 4 (by omega) x _ h2
  have h8 := step_win 8 (by omega) x _ h4
  have h16 := step_win 16 (by omega) x _ h8
  have h32 := step_win 32 (by omega) x _ h16
  have h64 := step_win 64 (by omega) x _ h32
  have h128 := step_win 128 (by omega) x _ h64
  exact (h128 r v).trans (win_full _ 256 r.val r.isLt)

/-- The first five steps are the first part of the body (`k0_pay5`), on the loaded tile with its unit axis dropped. -/
theorem pay5_eq (v3 : Vec Ideal S1x256x256 .f32) :
    k0_pay5 (F := Ideal) v3
      = step 16#32 (step 8#32 (step 4#32 (step 2#32 (step 1#32 (shapeCast S256x256 v3 shapeCasts_S1x256x256_S256x256))))) := rfl

/-- The last three steps and the join with the carried row (`k0_pay1`). -/
theorem pay1_eq (v35 : FVec Ideal S256x256 .f32) (v54 : Vec Ideal S1x256 .f32) :
    k0_pay1 (F := Ideal) (iota .tc S256x256 32 [0] iota_S256x256_d0_w32) v35 32#32 v54
      = maximumf (step 128#32 (step 64#32 (step 32#32 v35))) (broadcastTo S256x256 v54 broadcasts_S1x256_S256x256) := rfl

/-- The running maximum inside the body: row r, column v of `k0_pay1 ∘ k0_pay5` is the maximum of the tile's rows
    0 … r in that column, joined with the carried row's entry. -/
theorem full_apply (v3 : Vec Ideal S1x256x256 .f32) (v54 : Vec Ideal S1x256 .f32) (r v : Fin 256) :
    k0_pay1 (F := Ideal) (iota .tc S256x256 32 [0] iota_S256x256_d0_w32) (k0_pay5 v3) 32#32 v54 (ix2 r v)
      = max (pre (tcol (shapeCast S256x256 v3 shapeCasts_S1x256x256_S256x256) v) (r.val + 1)) (v54 (ix2 0 v)) := by
  rw [pay1_eq, pay5_eq, maximumf_apply, scan_apply]
  congr 1
  exact broadcastTo_apply v54 broadcasts_S1x256_S256x256 (ix2 r v) (ix2 0 v) fun a => by
    match a with
    | ⟨0, _⟩ => show (0 : ℕ) = if (1 : ℕ) = 1 then 0 else r.val; rw [if_pos rfl]
    | ⟨1, _⟩ => show v.val = if (256 : ℕ) = 1 then 0 else v.val; rw [if_neg (by decide)]

end Cert.KernelIdeal.ScanRead

end
-- ==== Proof.MatRead.lean ====
/-
  The two values the body stores, read at an index over the extended reals, in terms of the running-maximum
  tile `full` (`k0_pay1`): the new carry is its last row; the output tile at (r, o) is the sum over the
  feature axis v of full[r, v] · Wt[v, o], into a zero accumulator, plus the bias row at o. The change of
  format to bf16 before the product is the identity on the extended reals.
-/
import proofs.«110039_j59124519797164_2_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.MatRead

open Cert.KernelIdeal Cert.KernelIdeal.Gen Idealize.ShloMosaic Idealize.ShloMosaic.ValueIdx

/-- The new carry: entry v of the stored row is entry (255, v) of the running-maximum tile. -/
theorem pay2_apply (v5 : IVec S256x256 32) (v35 : FVec Ideal S256x256 .f32) (c : BitVec 32) (v54 : Vec Ideal S1x256 .f32) (v : Fin 256) :
    k0_pay2 (F := Ideal) v5 v35 c v54 (ix2 (0 : Fin 1) v) = k0_pay1 (F := Ideal) v5 v35 c v54 (ix2 (255 : Fin 256) v) := by
  unfold k0_pay2
  rw [shapeCast_self]
  exact extractStridedSlice_apply ![255, 0] (k0_pay1 (F := Ideal) v5 v35 c v54) slices_S256x256_o255_0_S1x256 (ix2 (0 : Fin 1) v)
    (ix2 (255 : Fin 256) v) (fun a => by
      match a with
      | ⟨0, _⟩ => show (255 : ℕ) = 255 + 0; rfl
      | ⟨1, _⟩ => show v.val = 0 + v.val; omega)

/-- The output tile at (0, r, o). -/
theorem pay3_apply (v5 : IVec S256x256 32) (v35 : FVec Ideal S256x256 .f32) (c : BitVec 32) (v54 : Vec Ideal S1x256 .f32)
    (v62 : Vec Ideal S256x256 .bf16) (v65 : Vec Ideal S1x256 .f32) (r o : Fin 256) :
    k0_pay3 (F := Ideal) v5 v35 c v54 v62 v65 (ix3 (0 : Fin 1) r o)
      = (∑ v : Fin 256, k0_pay1 (F := Ideal) v5 v35 c v54 (ix2 r v) * v62 (ix2 v o)) + v65 (ix2 (0 : Fin 1) o) := by
  unfold k0_pay3
  simp only [matmul]
  rw [shapeCast_addUnit_apply ![256, 256] _ shapeCasts_S256x256_S1x256x256 (ix3 (0 : Fin 1) r o),
    show (fun a : Fin 2 => ix3 (0 : Fin 1) r o a.succ) = ix2 r o from funext fun a => by
      match a with
      | ⟨0, _⟩ => rfl
      | ⟨1, _⟩ => rfl,
    addf_apply]
  refine congrArg₂ (fun a b : EReal => a + b) ?_ ?_
  · rw [Ideal.matmul_constant_zero_apply, ← Equiv.sum_comp (contrEquiv1 dot_S256x256_S256x256_S256x256_1_0_0_1_n_n 256 rfl rfl).symm]
    refine Finset.sum_congr rfl fun k _ => ?_
    have hk := contrEquiv1_symm_val dot_S256x256_S256x256_S256x256_1_0_0_1_n_n 256 rfl rfl k
    -- the operand indices at output (r, o) and feature v: (r, v) on the left, (v, o) on the right
    have l0 : ∀ q, (dot_S256x256_S256x256_S256x256_1_0_0_1_n_n.lhsIdx (ix2 r o) q 0).val = r.val := fun q => by
      unfold DotDims.lhsIdx
      rw [dif_neg (show ¬(0 : Fin S256x256.rank) ∈ dot_S256x256_S256x256_S256x256_1_0_0_1_n_n.lhsBatch by decide),
        dif_pos (show (0 : Fin S256x256.rank) ∈ dot_S256x256_S256x256_S256x256_1_0_0_1_n_n.lhsNonContracting by decide)]
      rfl
    have l1 : ∀ q, (dot_S256x256_S256x256_S256x256_1_0_0_1_n_n.lhsIdx (ix2 r o) q 1).val = (q ⟨0, by decide⟩).val := fun q =>
      dot_S256x256_S256x256_S256x256_1_0_0_1_n_n.lhsIdx_val_of_single rfl (ix2 r o) q
    have r0 : ∀ q, (dot_S256x256_S256x256_S256x256_1_0_0_1_n_n.rhsIdx (ix2 r o) q 0).val = (q ⟨0, by decide⟩).val := fun q =>
      dot_S256x256_S256x256_S256x256_1_0_0_1_n_n.rhsIdx_val_of_single rfl (ix2 r o) q
    have r1 : ∀ q, (dot_S256x256_S256x256_S256x256_1_0_0_1_n_n.rhsIdx (ix2 r o) q 1).val = o.val := fun q => by
      unfold DotDims.rhsIdx
      rw [dif_neg (show ¬(1 : Fin S256x256.rank) ∈ dot_S256x256_S256x256_S256x256_1_0_0_1_n_n.rhsBatch by decide),
        dif_pos (show (1 : Fin S256x256.rank) ∈ dot_S256x256_S256x256_S256x256_1_0_0_1_n_n.rhsNonContracting by decide)]
      rfl
    have el : dot_S256x256_S256x256_S256x256_1_0_0_1_n_n.lhsIdx (ix2 r o)
        ((contrEquiv1 dot_S256x256_S256x256_S256x256_1_0_0_1_n_n 256 rfl rfl).symm k) = ix2 r k :=
      funext fun a => Fin.ext (by
        match a with
        | ⟨0, _⟩ => exact l0 _
        | ⟨1, _⟩ => exact (l1 _).trans hk)
    have er : dot_S256x256_S256x256_S256x256_1_0_0_1_n_n.rhsIdx (ix2 r o)
        ((contrEquiv1 dot_S256x256_S256x256_S256x256_1_0_0_1_n_n 256 rfl rfl).symm k) = ix2 k o :=
      funext fun a => Fin.ext (by
        match a with
        | ⟨0, _⟩ => exact (r0 _).trans hk
        | ⟨1, _⟩ => exact r1 _)
    rw [el, er, shapeCast_self]
    rfl
  · rw [shapeCast_self]
    exact broadcastTo_apply v65 broadcasts_S1x256_S256x256 (ix2 r o) (ix2 (0 : Fin 1) o) fun a => by
      match a with
      | ⟨0, _⟩ => show (0 : ℕ) = if (1 : ℕ) = 1 then 0 else r.val; rw [if_pos rfl]
      | ⟨1, _⟩ => show o.val = if (256 : ℕ) = 1 then 0 else o.val; rw [if_neg (by decide)]

end Cert.KernelIdeal.MatRead

end
-- ==== Proof.Tiles.lean ====
/-
  The blocks the body loads, in terms of the argument arrays (over the extended reals).

  Grid point t is (batch row b, time tile i) = (t / 16, t % 16). The codes window's block there is rows
  256·i … 256·i + 255 of batch row b; the weight window's block is the whole transposed weight matrix, which
  the host computed before the launch (a transpose and a change of format, the identity here); the bias
  window's block is the bias as one row.
-/
import proofs.«110039_j59124519797164_2_alg».proof.Proof.Gen.KernelIdeal.Frame
import Idealize.ShloMosaic.Lib.Pipeline.Value
import Idealize.ShloMosaic.Lib.StableHlo.Run
import Idealize.ShloMosaic.Lib.ValueIdx
import Idealize.ShloMosaic.PureOps.Ideal.Laws

noncomputable section

namespace Cert.KernelIdeal.Tiles

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ)

/-- The codes window's block index at point `t` is (t / 16, t % 16, 0) — decided over the 256 points. -/
theorem codes_index : ∀ t : Fin cfg0.N, win0_0.index t 0 = t.val / 16 ∧ win0_0.index t 1 = t.val % 16 ∧ win0_0.index t 2 = 0 :=
  (by decide +kernel : ∀ t : Fin grid0.N, win0_0.index t 0 = t.val / 16 ∧ win0_0.index t 1 = t.val % 16 ∧ win0_0.index t 2 = 0)

/-- The output window's likewise. -/
theorem out_index : ∀ t : Fin cfg0.N, win0_3.index t 0 = t.val / 16 ∧ win0_3.index t 1 = t.val % 16 ∧ win0_3.index t 2 = 0 :=
  (by decide +kernel : ∀ t : Fin grid0.N, win0_3.index t 0 = t.val / 16 ∧ win0_3.index t 1 = t.val % 16 ∧ win0_3.index t 2 = 0)

/-- The weight and bias windows stay at block (0, 0). -/
theorem wt_index : ∀ t : Fin cfg0.N, win0_1.index t 0 = 0 ∧ win0_1.index t 1 = 0 :=
  (by decide +kernel : ∀ t : Fin grid0.N, win0_1.index t 0 = 0 ∧ win0_1.index t 1 = 0)
theorem bias_index : ∀ t : Fin cfg0.N, win0_2.index t 0 = 0 ∧ win0_2.index t 1 = 0 :=
  (by decide +kernel : ∀ t : Fin grid0.N, win0_2.index t 0 = 0 ∧ win0_2.index t 1 = 0)

/-- The codes tile at point `t`: row r, feature v is codes at (t / 16, 256·(t % 16) + r, v). -/
theorem codes_tile (c : Dev nD) (t : Fin cfg0.N) (r v : Fin 256) (hb : t.val / 16 < 16) (hl : 256 * (t.val % 16) + r.val < 4096) :
    iblk m c 0 t (ix3 (0 : Fin 1) r v)
      = m ((c : Thread nD τ).loc main_arg1) (ix3 (⟨t.val / 16, hb⟩ : Fin 16) (⟨256 * (t.val % 16) + r.val, hl⟩ : Fin 4096) v) := by
  obtain ⟨h0, h1, h2⟩ := codes_index t
  unfold iblk
  rw [View.read_apply]
  show V m c main_arg1 _ = _
  rw [V_main_arg1 m c]
  refine congrArg _ (funext fun a => Fin.ext ?_)
  match a with
  | ⟨0, _⟩ => show win0_0.index t 0 * 1 + 1 * 0 = t.val / 16; rw [h0]; omega
  | ⟨1, _⟩ => show win0_0.index t 1 * 256 + 1 * r.val = 256 * (t.val % 16) + r.val; rw [h1]; omega
  | ⟨2, _⟩ => show win0_0.index t 2 * 256 + 1 * v.val = v.val; rw [h2]; omega

/-- What the host left in the weight window's array: the transposed weights (the change of format is the identity). -/
theorem wt_stage (c : Dev nD) :
    (V m c main_v1 : S256x256.Idx → EReal)
      = truncf (F := Ideal) .bf16 (transpose S256x256 [1, 0] (m ((c : Thread nD τ).loc main_arg3) : S256x256.Idx → Ideal .f32)
          transposes_S256x256_S256x256_1_0) bitsLt_bf16_f32 := by
  dsimp only [Gen.V, Gen.hostOps0]
  after_results <;> rfl

/-- and in the bias window's array: the bias as one row. -/
theorem bias_stage (c : Dev nD) :
    (V m c main_v2 : S1x256.Idx → EReal)
      = shapeCast S1x256 (m ((c : Thread nD τ).loc main_arg4) : S256.Idx → EReal) shapeCasts_S256_S1x256 := by
  dsimp only [Gen.V, Gen.hostOps0]
  after_results <;> rfl

/-- The weight block: entry (v, o) is W[o, v]. -/
theorem wt_tile (c : Dev nD) (t : Fin cfg0.N) (v o : Fin 256) :
    iblk m c 1 t (ix2 v o) = m ((c : Thread nD τ).loc main_arg3) (ix2 o v) := by
  obtain ⟨h0, h1⟩ := wt_index t
  unfold iblk
  rw [View.read_apply]
  show (V m c main_v1 : S256x256.Idx → EReal) _ = _
  rw [wt_stage m c, truncf_apply]
  refine (transpose_apply [1, 0] (m ((c : Thread nD τ).loc main_arg3)) transposes_S256x256_S256x256_1_0 _ (ix2 o v) fun b => ?_)
  match b with
  | ⟨0, _⟩ => show v.val = win0_1.index t 0 * 256 + 1 * v.val; rw [h0]; omega
  | ⟨1, _⟩ => show o.val = win0_1.index t 1 * 256 + 1 * o.val; rw [h1]; omega

/-- The bias block: entry (0, o) is bias[o]. -/
theorem bias_tile (c : Dev nD) (t : Fin cfg0.N) (o : Fin 256) :
    iblk m c 2 t (ix2 (0 : Fin 1) o) = m ((c : Thread nD τ).loc main_arg4) (ix1 o) := by
  obtain ⟨h0, h1⟩ := bias_index t
  unfold iblk
  rw [View.read_apply]
  show (V m c main_v2 : S1x256.Idx → EReal) _ = _
  rw [bias_stage m c]
  refine shapeCast_apply (m ((c : Thread nD τ).loc main_arg4)) shapeCasts_S256_S1x256 _ (ix1 o) ?_
  show (S256.rowMajor (ix1 o)).val = (S1x256.rowMajor _).val
  rw [Shape.rowMajor_val_one, Shape.rowMajor_val_two]
  show o.val = (win0_2.index t 0 * 1 + 1 * 0) * 256 + (win0_2.index t 1 * 256 + 1 * o.val)
  rw [h0, h1]; omega

end Cert.KernelIdeal.Tiles

end
-- ==== Proof.Carry.lean ====
/-
  The carried row and the output block at every grid point.

  Before point t = 16·b + i the scratch holds, in column v, the maximum of codes[b, 0 … 256·i − 1, v] (−∞ when
  i = 0: the body resets it there); after it, the maximum of codes[b, 0 … 256·(i+1) − 1, v] — by induction on
  the point, each tile joining its own scan with what it was handed. Hence row r of the tile's running maximum
  is the maximum over the times 0 … 256·i + r, and the output block at (r, o) is the specification at
  (b, 256·i + r, o).
-/
import proofs.«110039_j59124519797164_2_alg».proof.Proof.Gen.KernelIdeal.Frame
import proofs.«110039_j59124519797164_2_alg».proof.Proof.Pieces
import proofs.«110039_j59124519797164_2_alg».proof.Proof.ScanRead
import proofs.«110039_j59124519797164_2_alg».proof.Proof.MatRead
import proofs.«110039_j59124519797164_2_alg».proof.Proof.Tiles
import proofs.«110039_j59124519797164_2_alg».proof.Proof.Spec

noncomputable section

open scoped BigOperators

namespace Cert.KernelIdeal.Carry

open Cert.KernelIdeal Cert.KernelIdeal.Gen Idealize.ShloMosaic Idealize.ShloMosaic.TcCoe Idealize.ShloMosaic.ValueIdx Idealize.SL.Sem
open Cert.PrefixMax Cert.KernelIdeal.Pieces

variable (m : (ℓ : Loc nD τ sig) → Buf (Elt Ideal) ℓ)

/-- The batch row of grid point `n`. -/
def brow (n : ℕ) (hn : n < cfg0.N) : Fin 16 := ⟨n / 16, by have h : cfg0.N = 256 := N_0; omega⟩

/-- Column (b, v) of codes for the batch row of point `n`, as a sequence along time. -/
abbrev seq (c : Dev nD) (n : ℕ) (hn : n < cfg0.N) (v : Fin 256) : ℕ → EReal :=
  Cert.Spec.col (m ((c : Thread nD τ).loc main_arg1)) (brow n hn) v

/-- What the body reads from the scratch at point `t`: −∞ at a first tile, else what the tile before left. -/
def carryIn (c : Dev nD) (t : Fin cfg0.N) : Vec Ideal S1x256 .f32 :=
  if t.val % 16 = 0 then k0_pay4 (F := Ideal)
  else (outsAt0 m c (t.val - 1) (Nat.lt_of_le_of_lt (Nat.sub_le _ _) t.isLt)).2

/-- What the body leaves at point `t`: the projected tile and the new carry, over what it read. -/
theorem outs_eq (c : Dev nD) (t : Fin cfg0.N) :
    outsAt0 m c t.val t.isLt
      = (k0_pay3 rows (k0_pay5 (iblk m c 0 t)) 32#32 (carryIn m c t) (iblk m c 1 t) (iblk m c 2 t),
         k0_pay2 rows (k0_pay5 (iblk m c 0 t)) 32#32 (carryIn m c t)) := by
  unfold carryIn
  by_cases h0 : t.val % 16 = 0
  · rw [outsAt0_A m c t h0, out_A, carry_A, if_pos h0]
  · rw [outsAt0_B m c t h0, out_B, carry_B, if_neg h0]

/-- The reset row is −∞ everywhere. -/
theorem reset_apply (j : S1x256.Idx) : k0_pay4 (F := Ideal) j = (⊥ : EReal) := by
  unfold k0_pay4
  rw [shapeCast_self]
  exact Cert.Spec.neg_inf

/-- Column v of the codes tile at point `t` is column (b, v) of codes from time 256·i on. -/
theorem tile_col (c : Dev nD) (t : Fin cfg0.N) (v : Fin 256) (k : ℕ) (hk : k < 256) :
    ScanRead.tcol (shapeCast S256x256 (iblk m c 0 t : Vec Ideal S1x256x256 .f32) shapeCasts_S1x256x256_S256x256) v k
      = seq m c t.val t.isLt v (256 * (t.val % 16) + k) := by
  have hN : t.val < 256 := lt_of_lt_of_eq t.isLt N_0
  unfold ScanRead.tcol
  rw [dif_pos hk, shapeCast_dropUnit_apply ![256, 256] _ shapeCasts_S1x256x256_S256x256 (ix2 (⟨k, hk⟩ : Fin 256) v)]
  -- (0, k, v) spelt with the unit coordinate prepended is (0, k, v)
  have e : (Fin.cons (⟨0, Nat.one_pos⟩ : Fin 1) (ix2 (⟨k, hk⟩ : Fin 256) v) : S1x256x256.Idx) = ix3 (0 : Fin 1) (⟨k, hk⟩ : Fin 256) v :=
    funext fun a => by
      match a with
      | ⟨0, _⟩ => rfl
      | ⟨1, _⟩ => rfl
      | ⟨2, _⟩ => rfl
  refine (congrArg (iblk m c 0 t : S1x256x256.Idx → EReal) e).trans ?_
  rw [Tiles.codes_tile m c t (⟨k, hk⟩ : Fin 256) v (by omega) (by show 256 * (t.val % 16) + k < 4096; omega)]
  show _ = Cert.Spec.col _ (brow t.val t.isLt) v (256 * (t.val % 16) + k)
  unfold Cert.Spec.col
  rw [dif_pos (by omega)]
  rfl

/-- Given the carried row as the maximum of everything before the tile, row r of the tile's running maximum is the
    maximum over the times 0 … 256·i + r. -/
theorem full_at (c : Dev nD) (t : Fin cfg0.N) (xs : Vec Ideal S1x256 .f32)
    (hxs : ∀ v : Fin 256, xs (ix2 (0 : Fin 1) v) = pre (seq m c t.val t.isLt v) (256 * (t.val % 16))) (r v : Fin 256) :
    k0_pay1 (F := Ideal) rows (k0_pay5 (iblk m c 0 t)) 32#32 xs (ix2 r v)
      = pre (seq m c t.val t.isLt v) (256 * (t.val % 16) + r.val + 1) := by
  rw [ScanRead.full_apply, hxs, ← pre_tile]
  refine congrArg₂ (fun a b : EReal => max a b) ?_ rfl
  exact pre_congr fun k hk => tile_col m c t v k (by have := r.isLt; omega)

/-- So the new carry is the maximum of everything up to the end of the tile. -/
theorem carry_out (c : Dev nD) (t : Fin cfg0.N)
    (hin : ∀ v : Fin 256, carryIn m c t (ix2 (0 : Fin 1) v) = pre (seq m c t.val t.isLt v) (256 * (t.val % 16))) (v : Fin 256) :
    (outsAt0 m c t.val t.isLt).2 (ix2 (0 : Fin 1) v) = pre (seq m c t.val t.isLt v) (256 * (t.val % 16 + 1)) := by
  rw [outs_eq]
  show k0_pay2 (F := Ideal) rows (k0_pay5 (iblk m c 0 t)) 32#32 (carryIn m c t) (ix2 (0 : Fin 1) v) = _
  rw [MatRead.pay2_apply, full_at m c t _ hin]
  show pre _ (256 * (t.val % 16) + 255 + 1) = _
  rw [show 256 * (t.val % 16) + 255 + 1 = 256 * (t.val % 16 + 1) from by omega]

/-- THE INVARIANT: before every point the scratch holds the maximum of everything before the tile. -/
theorem carry_inv (c : Dev nD) : ∀ (n : ℕ) (hn : n < cfg0.N) (v : Fin 256),
    carryIn m c ⟨n, hn⟩ (ix2 (0 : Fin 1) v) = pre (seq m c n hn v) (256 * (n % 16))
  | 0, hn, v => by
    unfold carryIn
    rw [if_pos (Nat.zero_mod _), reset_apply]
    show ⊥ = pre _ (256 * 0)
    rw [Nat.mul_zero, pre_zero]
  | n + 1, hn, v => by
    by_cases h0 : (n + 1) % 16 = 0
    · unfold carryIn
      rw [if_pos h0, reset_apply, h0, Nat.mul_zero, pre_zero]
    · have hn' : n < cfg0.N := Nat.lt_of_succ_lt hn
      have ih := carry_out m c ⟨n, hn'⟩ (fun v => carry_inv c n hn' v) v
      unfold carryIn
      rw [if_neg h0]
      show (outsAt0 m c n _).2 (ix2 (0 : Fin 1) v) = _
      rw [ih]
      have hb : brow n hn' = brow (n + 1) hn := Fin.ext (by show n / 16 = (n + 1) / 16; omega)
      show pre (Cert.Spec.col _ (brow n hn') v) (256 * (n % 16 + 1)) = pre (Cert.Spec.col _ (brow (n + 1) hn) v) (256 * ((n + 1) % 16))
      rw [hb, show n % 16 + 1 = (n + 1) % 16 from by omega]

/-- THE OUTPUT BLOCK at point `t`: entry (0, r, o) is the sum over the features v of the running maximum at time
    256·i + r times W[o, v], plus bias[o]. -/
theorem out_apply (c : Dev nD) (t : Fin cfg0.N) (r o : Fin 256) :
    (outsAt0 m c t.val t.isLt).1 (ix3 (0 : Fin 1) r o)
      = (∑ v : Fin 256, pre (seq m c t.val t.isLt v) (256 * (t.val % 16) + r.val + 1) * m ((c : Thread nD τ).loc main_arg3) (ix2 o v))
        + m ((c : Thread nD τ).loc main_arg4) (ix1 o) := by
  rw [outs_eq]
  show k0_pay3 (F := Ideal) rows (k0_pay5 (iblk m c 0 t)) 32#32 (carryIn m c t) (iblk m c 1 t) (iblk m c 2 t) (ix3 (0 : Fin 1) r o) = _
  rw [MatRead.pay3_apply, Tiles.bias_tile]
  refine congrArg₂ (fun a b : EReal => a + b) (Finset.sum_congr rfl fun v _ => ?_) rfl
  rw [full_at m c t _ (carry_inv m c t.val t.isLt), Tiles.wt_tile]

end Cert.KernelIdeal.Carry

end
-- ==== Proof.Blocks.lean ====
/-
  From the blocks to the result array.

  Point t = 16·b + i writes back rows 256·i … of batch row b: all 256 rows of its staging block, except at the
  last time tile, where the block overhangs the 4095 rows of the array by one and only its first 255 rows are
  written. Every row written is a row of the specification (the staging block's row r is the specification's
  row 256·i + r); every row of the array lies in the block of point 16·b + l / 256. So the result array ends
  holding the specification of the argument arrays, whatever the overhanging row holds.
-/
import proofs.«110039_j59124519797164_2_alg».proof.Proof.Gen.KernelIdeal.Value
import proofs.«110039_j59124519797164_2_alg».proof.Proof.Carry
import proofs.«110039_j59124519797164_2_alg».proof.Proof.Spec
import proofs.«110039_j59124519797164_2_alg».proof.Proof.Tiles

noncomputable section

open scoped BigOperators

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The specification at the argument arrays as launched. -/
def result (c : Dev nD) : Buf (Elt Ideal) ((c : Thread nD τ).loc main_v3) :=
  Cert.Spec.G (m ((c : Thread nD τ).loc main_arg1)) (m ((c : Thread nD τ).loc main_arg3)) (m ((c : Thread nD τ).loc main_arg4))

/-- How many rows of a block of `k` starting at block index `ix` lie inside an axis of extent `d`. -/
theorem extent_of (ix k d : ℕ) : (Pipeline.Clip.of ix k d).extent k = if (ix + 1) * k ≤ d then k else d - ix * k := by
  unfold Pipeline.Clip.of
  split <;> rfl

/-- WHAT POINT `t` WRITES BACK is its block of the specification. -/
theorem flushed_eq (c : Dev nD) (t : Fin cfg0.N) (hf : (cfg0.win 3).flush t = true) :
    (dats m 0 c).flushed 3 t = ((cfg0.win 3).blk t).view.read (Elt Ideal) (result m c) := by
  have hN : t.val < 256 := lt_of_lt_of_eq t.isLt N_0
  obtain ⟨h0, h1, h2⟩ := Tiles.out_index t
  rw [Value.flushed3]
  funext y
  rw [View.read_apply]
  have y0 : (y 0).val < 1 := lt_of_lt_of_le (y 0).isLt (win0_3.xsize_le (grid0.coords t) 0)
  have y1 : (y 1).val < 256 := lt_of_lt_of_le (y 1).isLt (win0_3.xsize_le (grid0.coords t) 1)
  have y2 : (y 2).val < 256 := lt_of_lt_of_le (y 2).isLt (win0_3.xsize_le (grid0.coords t) 2)
  -- the array index the block's entry y lands on
  have a0 : (((cfg0.win 3).blk t).view.emb y 0).val = t.val / 16 := by
    show win0_3.index t 0 * 1 + 1 * (y 0).val = _; rw [h0]; omega
  have a1 : (((cfg0.win 3).blk t).view.emb y 1).val = 256 * (t.val % 16) + (y 1).val := by
    show win0_3.index t 1 * 256 + 1 * (y 1).val = _; rw [h1]; omega
  have a2 : (((cfg0.win 3).blk t).view.emb y 2).val = (y 2).val := by
    show win0_3.index t 2 * 256 + 1 * (y 2).val = _; rw [h2]; omega
  show (outsAt0 m c t.val t.isLt).1 (win0_3.xinj (grid0.coords t) y) = result m c (((cfg0.win 3).blk t).view.emb y)
  rw [show win0_3.xinj (grid0.coords t) y = ix3 (0 : Fin 1) (⟨(y 1).val, y1⟩ : Fin 256) (⟨(y 2).val, y2⟩ : Fin 256) from
      funext fun a => Fin.ext (by
        match a with
        | ⟨0, _⟩ => show (y 0).val = 0; omega
        | ⟨1, _⟩ => rfl
        | ⟨2, _⟩ => rfl),
    Carry.out_apply]
  unfold result Cert.Spec.G Cert.Spec.runmax
  have e0 : ((cfg0.win 3).blk t).view.emb y 0 = Carry.brow t.val t.isLt := Fin.ext a0
  have e2 : ((cfg0.win 3).blk t).view.emb y 2 = (⟨(y 2).val, y2⟩ : Fin 256) := Fin.ext a2
  rw [e0, e2, a1]

/-- EVERY ROW OF THE ARRAY is in the block of the point of its batch row and time tile. -/
theorem cover (c : Dev nD) (i : S16x4095x256.Idx) :
    ∃ t : Fin cfg0.N, (cfg0.win 3).flush t = true ∧ i ∈ ((cfg0.win 3).blk t).view.set := by
  have i0 : (i 0).val < 16 := (i 0).isLt
  have i1 : (i 1).val < 4095 := (i 1).isLt
  have i2 : (i 2).val < 256 := (i 2).isLt
  have hN : cfg0.N = 256 := N_0
  have ht : 16 * (i 0).val + (i 1).val / 256 < cfg0.N := by omega
  refine ⟨⟨16 * (i 0).val + (i 1).val / 256, ht⟩, flush0_3 _, ?_⟩
  obtain ⟨h0, h1, h2⟩ := Tiles.out_index ⟨16 * (i 0).val + (i 1).val / 256, ht⟩
  have ht0 : (16 * (i 0).val + (i 1).val / 256) / 16 = (i 0).val := by omega
  have ht1 : (16 * (i 0).val + (i 1).val / 256) % 16 = (i 1).val / 256 := by omega
  show i ∈ ((View.whole main_v3).slice (win0_3.rect ⟨16 * (i 0).val + (i 1).val / 256, ht⟩)).set
  rw [View.set_slice_whole, Rect.mem_set_unit]
  intro a
  match a with
  | ⟨0, _⟩ =>
    show win0_3.index ⟨16 * (i 0).val + (i 1).val / 256, ht⟩ 0 * 1 ≤ (i 0).val
      ∧ (i 0).val < win0_3.index ⟨16 * (i 0).val + (i 1).val / 256, ht⟩ 0 * 1
          + (Pipeline.Clip.of (win0_3.index ⟨16 * (i 0).val + (i 1).val / 256, ht⟩ 0) 1 16).extent 1
    rw [extent_of, h0]
    show (16 * (i 0).val + (i 1).val / 256) / 16 * 1 ≤ (i 0).val
      ∧ (i 0).val < (16 * (i 0).val + (i 1).val / 256) / 16 * 1 + if ((16 * (i 0).val + (i 1).val / 256) / 16 + 1) * 1 ≤ 16 then 1 else 16 - (16 * (i 0).val + (i 1).val / 256) / 16 * 1
    rw [ht0]
    split_ifs <;> omega
  | ⟨1, _⟩ =>
    show win0_3.index ⟨16 * (i 0).val + (i 1).val / 256, ht⟩ 1 * 256 ≤ (i 1).val
      ∧ (i 1).val < win0_3.index ⟨16 * (i 0).val + (i 1).val / 256, ht⟩ 1 * 256
          + (Pipeline.Clip.of (win0_3.index ⟨16 * (i 0).val + (i 1).val / 256, ht⟩ 1) 256 4095).extent 256
    rw [extent_of, h1]
    show (16 * (i 0).val + (i 1).val / 256) % 16 * 256 ≤ (i 1).val
      ∧ (i 1).val < (16 * (i 0).val + (i 1).val / 256) % 16 * 256 + if ((16 * (i 0).val + (i 1).val / 256) % 16 + 1) * 256 ≤ 4095 then 256 else 4095 - (16 * (i 0).val + (i 1).val / 256) % 16 * 256
    rw [ht1]
    split_ifs <;> omega
  | ⟨2, _⟩ =>
    show win0_3.index ⟨16 * (i 0).val + (i 1).val / 256, ht⟩ 2 * 256 ≤ (i 2).val
      ∧ (i 2).val < win0_3.index ⟨16 * (i 0).val + (i 1).val / 256, ht⟩ 2 * 256
          + (Pipeline.Clip.of (win0_3.index ⟨16 * (i 0).val + (i 1).val / 256, ht⟩ 2) 256 256).extent 256
    rw [extent_of, h2]
    split_ifs <;> omega

/-- So the result array ends holding the specification. -/
theorem final (c : Dev nD) : (dats m 0 c).arrAt 3 cfg0.N = result m c :=
  (dats m 0 c).arrAt_eq_of_cover 3 (result m c) (flushed_eq m c) (cover c)

/-- THE KERNEL'S RUN: every weakly fair execution terminates with the result array at the specification of the
    argument arrays, and the arguments as they were. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Blocks

end
-- ==== Proof.lean ====
/-
  A running maximum along time, followed by an affine map of the features:

      out[b, l, o] = Σ_v ( max_{k ≤ l} codes[b, k, v] ) · W[o, v] + bias[o],      b < 16, l < 4095, o < 256.

  The kernel computes the running maximum tile by tile (256 times at once): inside a tile by eight doubling steps
  of a shift-and-max scan, across tiles by carrying the maximum of everything before the tile in a scratch row
  that is reset to −∞ at each batch row's first tile; it contracts each tile with the transposed weights on the
  matrix unit into a zero accumulator and adds the bias row; the last tile of a batch row overhangs the 4095 rows
  of the result by one, and that row is not written back. The reference computes the running maximum as a fold of
  max, from −∞, over a window of 4096 positions ending at each time, drops the last time step, contracts with W
  and adds the broadcast bias.

  Over the extended reals both are the function `Spec.G` of the argument arrays. Only the order structure of max
  (−∞ is the least element; max is associative, commutative, idempotent) and the re-indexing of one finite sum
  are used: the two sums have the same terms, so the inputs' finiteness is never needed. The changes of float
  format (f32 to bf16 before the product) are the identity at the ideal values, and the idealization rewrote
  nothing, so its claim is trivial.

  Modules: PrefixMax (order lemmas), Spec (the function G), RefRun and RefSpec (the reference's run, and its term
  is G), ScanRead and MatRead (the body's arithmetic at an index), Pieces (what a run of the body leaves),
  Tiles (the loaded blocks in terms of the arguments), Carry (the carried row and the output block at every
  point, by induction on the point), Blocks (from the blocks to the result array).
-/
import proofs.«110039_j59124519797164_2_alg».proof.Defs
import proofs.«110039_j59124519797164_2_alg».proof.Proof.Gen.Kernel
import proofs.«110039_j59124519797164_2_alg».proof.Proof.Gen.Kernel.Frame
import proofs.«110039_j59124519797164_2_alg».proof.Proof.Gen.KernelIdeal
import proofs.«110039_j59124519797164_2_alg».proof.Proof.Gen.KernelIdeal.Frame
import proofs.«110039_j59124519797164_2_alg».proof.Proof.Gen.KernelIdeal.Value
import proofs.«110039_j59124519797164_2_alg».proof.Proof.Gen.ReferenceIdeal
import proofs.«110039_j59124519797164_2_alg».proof.Proof.Gen.Pre_finite_inputs
import proofs.«110039_j59124519797164_2_alg».proof.Proof.RefRun
import proofs.«110039_j59124519797164_2_alg».proof.Proof.RefSpec
import proofs.«110039_j59124519797164_2_alg».proof.Proof.Blocks
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- At the ideal values the kernel's result array ends at `Spec.G` of its arguments (`Blocks.run`) and the reference's
    at its composed term of arguments that agree with them, which is `Spec.G` of the same arrays (`RefSpec.term_eq`). -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefSpec.term_eq, (hagree c).2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
